-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S1250000 32) (main_arg2 : IVec S1250000 32) (main_arg3 : FVec F S1250000 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000 .f32 := Host.absf main_arg3
  let main_cst_0 : FVec F S_ .f32 := constant S_ .f32 0x7F800000#32
  let main_v5 : FVec F S1250000 .f32 := broadcastInDim S1250000 ![] bcast_S_S1250000 main_cst_0
  let main_v6 : IVec S1250000 1 := cmpf .olt main_v4 main_v5
  let main_c_1 : IVec S_ 1 := constantI S_ 1 1#1
  let main_v7 : IVec S_ 1 := (fun x v => Host.reduce IntOp.andi x v reducesTo_S1250000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S1250000x1 : Shape := ⟨2, ![1250000, 1]⟩
abbrev S1x64 : Shape := ⟨2, ![1, 64]⟩
abbrev S_ : Shape := ⟨0, ![]⟩
abbrev S1250000x64 : Shape := ⟨2, ![1250000, 64]⟩
abbrev S5000x64 : Shape := ⟨2, ![5000, 64]⟩
abbrev S5000x1 : Shape := ⟨2, ![5000, 1]⟩
abbrev S10000x64 : Shape := ⟨2, ![10000, 64]⟩

abbrev nBuf : Space → Nat
  | .hbm => 23
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S1250000, .f32⟩
  | .hbm, ⟨4, _⟩ => ⟨S64x64, .f32⟩
  | .hbm, ⟨5, _⟩ => ⟨S64, .f32⟩
  | .hbm, ⟨6, _⟩ => ⟨S1250000x1, .f32⟩
  | .hbm, ⟨7, _⟩ => ⟨S1x64, .f32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S1250000x64, .f32⟩
  | .hbm, ⟨18, _⟩ => ⟨S_, .f32⟩
  | .hbm, ⟨19, _⟩ => ⟨S100000x64, .f32⟩
  | .hbm, ⟨20, _⟩ => ⟨S1250000x1, .i32⟩
  | .hbm, ⟨21, _⟩ => ⟨S100000x64, .f32⟩
  | .hbm, ⟨22, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1250000_S1250000x1 : S1250000.ShapeCasts S1250000x1
  shapeCasts_S64_S1x64 : S64.ShapeCasts S1x64
  bcast_S_S1250000 : S_.BroadcastsInDim S1250000 (![] : Fin 0 → Fin S1250000.rank)
  bcast_S1250000_S1250000x1_0 : S1250000.BroadcastsInDim S1250000x1 (![0] : Fin 1 → Fin S1250000x1.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1250000x64.size a
  hwx0_0 : ∀ i : grid0.Coords, EltTy.bits .f32 = 32 ∨ (Rect.block (s := S1250000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S1250000x1.size a
  hwx0_1 : ∀ i : grid0.Coords, EltTy.bits .f32 = 32 ∨ (Rect.block (s := S1250000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1250000x64.size a
  hwx0_2 : ∀ i : grid0.Coords, EltTy.bits .f32 = 32 ∨ (Rect.block (s := S1250000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v8) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S1250000x1 : Shape := ⟨2, ![1250000, 1]⟩
abbrev S_ : Shape := ⟨0, ![]⟩
abbrev S1250000x64 : Shape := ⟨2, ![1250000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S1250000, .f32⟩
  | .hbm, ⟨4, _⟩ => ⟨S64x64, .f32⟩
  | .hbm, ⟨5, _⟩ => ⟨S64, .f32⟩
  | .hbm, ⟨6, _⟩ => ⟨S1250000x1, .f32⟩
  | .hbm, ⟨7, _⟩ => ⟨S_, .i32⟩
  | .hbm, ⟨8, _⟩ => ⟨S1250000, .i32⟩
  | .hbm, ⟨9, _⟩ => ⟨S1250000, .i1⟩
  | .hbm, ⟨10, _⟩ => ⟨S_, .i32⟩
  | .hbm, ⟨11, _⟩ => ⟨S1250000, .i32⟩
  | .hbm, ⟨12, _⟩ => ⟨S1250000, .i32⟩
  | .hbm, ⟨13, _⟩ => ⟨S1250000, .i32⟩
  | .hbm, ⟨14, _⟩ => ⟨S1250000x1, .i32⟩
  | .hbm, ⟨15, _⟩ => ⟨S1250000x64, .f32⟩
  | .hbm, ⟨16, _⟩ => ⟨S1250000x64, .f32⟩
  | .hbm, ⟨17, _⟩ => ⟨S1250000x64, .f32⟩
  | .hbm, ⟨18, _⟩ => ⟨S_, .f32⟩
  | .hbm, ⟨19, _⟩ => ⟨S100000x64, .f32⟩
  | .hbm, ⟨20, _⟩ => ⟨S1250000x1, .i32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S1250000_S1250000x1_0 : S1250000.BroadcastsInDim S1250000x1 (![0] : Fin 1 → Fin S1250000x1.rank)
  bcast_S_S1250000 : S_.BroadcastsInDim S1250000 (![] : Fin 0 → Fin S1250000.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its RESULT named.

  @main is four segments: a stretch of host operations (the reshapes of the edge weights and of the bias, the wrap of
  negative source indices, the gather of the source rows), the region that scales every gathered row by its edge's
  weight, a second stretch (the zero array, the destination indices as a column, the scatter-add into the node array),
  and the region that multiplies the node array by the weight matrix and adds the bias. The library's theorem for a
  program of several regions runs the segments in order and ends with every unscoped buffer at the contents of the last
  segment boundary; the frame reads the six argument arrays out of that state. Here the same run is read once more, at
  the result buffer as well: it holds the last boundary's contents at the second region's output array.
-/
import proofs.«119952_j48533130445595_2_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the contents of the
    last segment boundary at the second region's output array, and the six argument arrays are as launched. -/
theorem run_result : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v13 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Whole

end
-- ==== Proof.Spec.lean ====
/-
  The graph convolution as two whole-array functions on the extended reals.

  There are 1 250 000 edges, 100 000 nodes and 64 channels. A MESSAGE array has one row per edge: the source node's row
  scaled by the edge's weight. The messages are then summed into their destination nodes' rows (the same scatter-add in
  the kernel's program and in the reference, never opened here), and the summed node array goes through one affine map:
  each node's row times the 64 × 64 weight matrix, plus the bias row.

  `scaleRows` and `affine` state the two steps index by index. Both programs compute them up to the order of the two
  factors of a product, which does not matter on the extended reals: multiplication there is commutative, infinities
  included, so no finiteness of the inputs is ever used.
-/
import Idealize.ShloMosaic.PureOps.Ideal
import Idealize.ShloMosaic.Lib.ValueIdx

noncomputable section

namespace Cert.GraphConv

open Idealize.ShloMosaic Idealize.ShloMosaic.ValueIdx

/-- One row per edge, 64 channels. -/
abbrev SEdgeRows : Shape := ⟨2, ![1250000, 64]⟩
/-- One weight per edge, as a column. -/
abbrev SEdgeCol : Shape := ⟨2, ![1250000, 1]⟩
/-- One row per node, 64 channels. -/
abbrev SNodeRows : Shape := ⟨2, ![100000, 64]⟩
/-- The weight matrix. -/
abbrev SWeights : Shape := ⟨2, ![64, 64]⟩
/-- The bias, as a row. -/
abbrev SBiasRow : Shape := ⟨2, ![1, 64]⟩

/-- The weight column's entry of the edge that message entry `i` belongs to. -/
abbrev edgeOf (i : SEdgeRows.Idx) : SEdgeCol.Idx :=
  ix2 (⟨(i 0).val, idx2_lt0 i⟩ : Fin 1250000) (⟨0, Nat.one_pos⟩ : Fin 1)

/-- Every row scaled by its edge's weight: entry `(e, k)` is `g (e, k) · w (e, 0)`. -/
def scaleRows (g : FVec Ideal SEdgeRows .f32) (w : FVec Ideal SEdgeCol .f32) : FVec Ideal SEdgeRows .f32 :=
  fun i => g i * w (edgeOf i)

/-- Entry `k` of the node row that output entry `i` belongs to. -/
abbrev rowAt (i : SNodeRows.Idx) (k : Fin 64) : SNodeRows.Idx := ix2 (⟨(i 0).val, idx2_lt0 i⟩ : Fin 100000) k
/-- Entry `k` of the weight matrix's column that output entry `i` belongs to. -/
abbrev colAt (i : SNodeRows.Idx) (k : Fin 64) : SWeights.Idx := ix2 k (⟨(i 1).val, idx2_lt1 i⟩ : Fin 64)
/-- The bias entry of output entry `i`'s channel. -/
abbrev biasAt (i : SNodeRows.Idx) : SBiasRow.Idx := ix2 (⟨0, Nat.one_pos⟩ : Fin 1) (⟨(i 1).val, idx2_lt1 i⟩ : Fin 64)

/-- The affine map on node rows: entry `(v, o)` is `∑ₖ f (v, k) · W (k, o) + b (0, o)`. -/
def affine (f : FVec Ideal SNodeRows .f32) (W : FVec Ideal SWeights .f32) (b : FVec Ideal SBiasRow .f32) :
    FVec Ideal SNodeRows .f32 :=
  fun i => (∑ k : Fin 64, f (rowAt i k) * W (colAt i k)) + b (biasAt i)

theorem scaleRows_apply (g : FVec Ideal SEdgeRows .f32) (w : FVec Ideal SEdgeCol .f32) (i : SEdgeRows.Idx) :
    scaleRows g w i = g i * w (edgeOf i) := rfl

theorem affine_apply (f : FVec Ideal SNodeRows .f32) (W : FVec Ideal SWeights .f32) (b : FVec Ideal SBiasRow .f32)
    (i : SNodeRows.Idx) : affine f W b i = (∑ k : Fin 64, f (rowAt i k) * W (colAt i k)) + b (biasAt i) := rfl

end Cert.GraphConv

end
-- ==== Proof.ScaleRegion.lean ====
/-
  The first region, read as a whole array.

  The region walks the 1 250 000 message rows in 250 blocks of 5000 rows. At block `t` the body loads rows
  `5000 t … 5000 t + 4999` of the gathered source rows and of the weight column, broadcasts the column along the 64
  channels, multiplies, and stores the 5000 × 64 product, which the pipeline writes back to the same rows of the message
  array. So what block `t` writes back is block `t` of ONE function of the two arrays the region finds — every row
  scaled by its edge's weight (`scaleRows`) — and the 250 blocks tile the array (row `r` lies in block `r / 5000`):
  after the region the message array IS `scaleRows` of the gathered rows and the weight column.

  Everything is stated at arbitrary contents `V` of the buffers when the region is entered; which contents those are
  (the host operations before the region) is another module's business.
-/
import proofs.«119952_j48533130445595_2_alg».proof.Proof.Gen.KernelIdeal.Frame
import proofs.«119952_j48533130445595_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The body's stored value at row `r`, channel `k` of its block: the loaded row entry times the loaded column's entry
    of row `r` (the two casts to the same shape are identities, the broadcast repeats the column along the channels). -/
theorem scale_payload (x0 : Vec Ideal S5000x64 .f32) (x1 : Vec Ideal S5000x1 .f32) (j : S5000x64.Idx) (k : S5000x1.Idx)
    (hk0 : (k 0).val = (j 0).val) (hk1 : (k 1).val = 0) :
    k0_pay1 x0 x1 j = x0 j * x1 k := by
  unfold k0_pay1
  rw [shapeCast_self, shapeCast_self]
  show FloatOps.mulf (F := Ideal) (φ := .f32) (x0 j) (broadcastTo S5000x64 x1 broadcasts_S5000x1_S5000x64 j) = _
  rw [broadcastTo_apply x1 broadcasts_S5000x1_S5000x64 j k (fun a => match a with
    | ⟨0, _⟩ => by show (k 0).val = if (5000 : Nat) = 1 then 0 else (j 0).val; rw [if_neg (by decide)]; exact hk0
    | ⟨1, _⟩ => by show (k 1).val = if (1 : Nat) = 1 then 0 else (j 1).val; rw [if_pos rfl]; exact hk1)]
  rfl

/-- The three windows' block indices at point `t`, decided over the 250 points: block `t` of the rows, block 0 of
    the channels (and of the weight column's one column). -/
theorem scale_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The gathered rows' block at point `t` is rows `5000 t …` of the array the region finds. -/
theorem gathered_block (c : Dev nD) (t : Fin cfg0.N) (y : S5000x64.Idx) (i : S1250000x64.Idx)
    (h0 : (i 0).val = t.val * 5000 + (y 0).val) (h1 : (i 1).val = (y 1).val) :
    (iblk0 V c 0 t : Vec Ideal S5000x64 .f32) y = (V c main_v8 : S1250000x64.Idx → Elt Ideal .f32) i := by
  obtain ⟨e0, e1, -⟩ := scale_index t
  unfold iblk0
  rw [View.read_apply]
  show V c main_v8 _ = V c main_v8 _
  refine congrArg (V c main_v8) ?_
  funext a
  apply Fin.ext
  match a with
  | ⟨0, _⟩ => show win0_0.index t 0 * 5000 + 1 * (y 0).val = (i 0).val; rw [e0, h0]; omega
  | ⟨1, _⟩ => show win0_0.index t 1 * 64 + 1 * (y 1).val = (i 1).val; rw [e1, h1]; omega

/-- The weight column's block at point `t` is rows `5000 t …` of the column the region finds. -/
theorem weight_block (c : Dev nD) (t : Fin cfg0.N) (y : S5000x1.Idx) (i : S1250000x1.Idx)
    (h0 : (i 0).val = t.val * 5000 + (y 0).val) (h1 : (i 1).val = (y 1).val) :
    (iblk0 V c 1 t : Vec Ideal S5000x1 .f32) y = (V c main_v0 : S1250000x1.Idx → Elt Ideal .f32) i := by
  obtain ⟨-, -, e2, e3, -⟩ := scale_index t
  unfold iblk0
  rw [View.read_apply]
  show V c main_v0 _ = V c main_v0 _
  refine congrArg (V c main_v0) ?_
  funext a
  apply Fin.ext
  match a with
  | ⟨0, _⟩ => show win0_1.index t 0 * 5000 + 1 * (y 0).val = (i 0).val; rw [e2, h0]; omega
  | ⟨1, _⟩ => show win0_1.index t 1 * 1 + 1 * (y 1).val = (i 1).val; rw [e3, h1]; omega

/-- WHAT POINT `t` WRITES BACK is block `t` of the scaled rows. -/
theorem scale_flushed (c : Dev nD) (t : Fin cfg0.N) :
    (dat0 V c).flushed 2 t
      = ((cfg0.win 2).blk t).view.read (Elt Ideal) (scaleRows (V c main_v8) (V c main_v0)) := by
  show (cfg0.win 2).cut (grid0.coords t) ((dat0 V c).after 2 t) = _
  rw [after0_2]
  unfold out0_2
  rw [View.canon_unit_zero origin2]
  simp only [View.ld_unit_zero (S := S5000x64) origin2, View.ld_unit_zero (S := S5000x1) origin2]
  obtain ⟨-, -, -, -, e4, e5⟩ := scale_index t
  funext j
  show k0_pay1 (iblk0 V c 0 t) (iblk0 V c 1 t) j
    = scaleRows (V c main_v8) (V c main_v0) (((cfg0.win 2).blk t).view.emb j)
  have hj0 : ((((cfg0.win 2).blk t).view.emb j) 0).val = t.val * 5000 + (j 0).val := by
    show win0_2.index t 0 * 5000 + 1 * (j 0).val = _; rw [e4]; omega
  have hj1 : ((((cfg0.win 2).blk t).view.emb j) 1).val = (j 1).val := by
    show win0_2.index t 1 * 64 + 1 * (j 1).val = _; rw [e5]; omega
  refine (scale_payload (iblk0 V c 0 t) (iblk0 V c 1 t) j
    (ix2 (⟨(j 0).val, (j 0).isLt⟩ : Fin 5000) (⟨0, Nat.one_pos⟩ : Fin 1)) rfl rfl).trans ?_
  rw [scaleRows_apply,
    gathered_block V c t j (((cfg0.win 2).blk t).view.emb j) hj0 hj1,
    weight_block V c t (ix2 (⟨(j 0).val, (j 0).isLt⟩ : Fin 5000) (⟨0, Nat.one_pos⟩ : Fin 1))
      (edgeOf (((cfg0.win 2).blk t).view.emb j)) hj0 rfl]

/-- An index of the message array is in point `t`'s block iff each coordinate is in the block's range on its axis. -/
theorem scale_mem_blk (t : Fin cfg0.N) (i : S1250000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v9).slice (win0_2.rect t)).set ↔ _
  rw [View.set_slice_whole, Rect.mem_set_unit]
  exact Iff.rfl

/-- The 250 blocks tile the message array: row `r` lies in block `r / 5000`. -/
theorem scale_cover (i : S1250000x64.Idx) :
    ∃ t : Fin cfg0.N, (cfg0.win 2).flush t = true ∧ i ∈ ((cfg0.win 2).blk t).view.set := by
  have hi0 : (i 0).val < 1250000 := (i 0).isLt
  have hi1 : (i 1).val < 64 := (i 1).isLt
  have hN : cfg0.N = 250 := N_0
  refine ⟨⟨(i 0).val / 5000, by rw [hN]; omega⟩, flush0_2 _, ?_⟩
  rw [scale_mem_blk]
  obtain ⟨-, -, -, -, e4, e5⟩ := scale_index ⟨(i 0).val / 5000, by rw [hN]; omega⟩
  intro a
  match a with
  | ⟨0, _⟩ =>
    show win0_2.index _ 0 * 5000 ≤ (i 0).val ∧ (i 0).val < win0_2.index _ 0 * 5000 + 5000
    rw [e4]; show (i 0).val / 5000 * 5000 ≤ (i 0).val ∧ (i 0).val < (i 0).val / 5000 * 5000 + 5000; omega
  | ⟨1, _⟩ =>
    show win0_2.index _ 1 * 64 ≤ (i 1).val ∧ (i 1).val < win0_2.index _ 1 * 64 + 64
    rw [e5]; omega

/-- THE MESSAGE ARRAY after the region: every gathered row scaled by its edge's weight. -/
theorem scale_final (c : Dev nD) :
    (dat0 V c).arrAt 2 cfg0.N = scaleRows (V c main_v8) (V c main_v0) :=
  (dat0 V c).arrAt_eq_of_cover 2 (scaleRows (V c main_v8) (V c main_v0)) (fun t _ => scale_flushed V c t) scale_cover

end Cert.KernelIdeal.Whole

end
-- ==== Proof.LinearRegion.lean ====
/-
  The second region, read as a whole array.

  The region walks the 100 000 node rows in 10 blocks of 10 000 rows; the 64 × 64 weight matrix and the 1 × 64 bias row
  are fetched whole, once. At block `t` the body loads rows `10000 t … 10000 t + 9999` of the summed node array,
  narrows both factors to bfloat16 (a change of format: the identity on the extended reals), multiplies them into a zero
  accumulator — at row `r`, channel `o` the sum over `k` of `f (r, k) · W (k, o)` —, adds the bias row broadcast along the
  rows, and stores the block, which the pipeline writes back to the same rows of the result. So what block `t` writes
  back is block `t` of ONE function of the three arrays the region finds, the affine map of `Spec.lean`, and the ten
  blocks tile the result (row `r` lies in block `r / 10000`).

  Everything is stated at arbitrary contents `V` of the buffers when the region is entered.
-/
import proofs.«119952_j48533130445595_2_alg».proof.Proof.Gen.KernelIdeal.Frame
import proofs.«119952_j48533130445595_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2' : (![0, 0] : Fin 2 → Nat) = fun _ => 0 := funext fun a => by fin_cases a <;> rfl

/-! ## The product's operand indices: the left factor keeps the row, the right factor keeps the channel, and the one
    contracted axis is the left factor's channel and the right factor's row -/

theorem prod_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem prod_lhs_k (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem prod_rhs_k (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem prod_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- Entry `k` of row `j 0` of a 10 000-row block. -/
abbrev blockRowAt (j : S10000x64.Idx) (k : Fin 64) : S10000x64.Idx := ix2 (⟨(j 0).val, idx2_lt0 j⟩ : Fin 10000) k
/-- Entry `k` of the weight matrix's column `j 1`. -/
abbrev blockColAt (j : S10000x64.Idx) (k : Fin 64) : S64x64.Idx := ix2 k (⟨(j 1).val, idx2_lt1 j⟩ : Fin 64)

/-- The body's stored value at row `r`, channel `o` of its block: `∑ₖ x0 (r, k) · x1 (k, o) + x2 (0, o)`. -/
theorem linear_payload (x0 : Vec Ideal S10000x64 .f32) (x1 : Vec Ideal S64x64 .f32) (x2 : Vec Ideal S1x64 .f32)
    (j : S10000x64.Idx) (b : S1x64.Idx) (hb0 : (b 0).val = 0) (hb1 : (b 1).val = (j 1).val) :
    k1_pay1 x0 x1 x2 j = (∑ k : Fin 64, x0 (blockRowAt j k) * x1 (blockColAt j k)) + x2 b := by
  unfold k1_pay1
  rw [shapeCast_self, shapeCast_self]
  show FloatOps.matmul dot_S10000x64_S64x64_S10000x64_1_0_0_1_n_n none (x0 : FVec Ideal S10000x64 .bf16) (x1 : FVec Ideal S64x64 .bf16)
      (constant (F := Ideal) S10000x64 .f32 0x00000000#32) j + broadcastTo S10000x64 x2 broadcasts_S1x64_S10000x64 j = _
  rw [Ideal.matmul_constant_zero_apply, broadcastTo_apply x2 broadcasts_S1x64_S10000x64 j b (fun a => match a with
    | ⟨0, _⟩ => by show (b 0).val = if (1 : Nat) = 1 then 0 else (j 0).val; rw [if_pos rfl]; exact hb0
    | ⟨1, _⟩ => by show (b 1).val = if (64 : Nat) = 1 then 0 else (j 1).val; rw [if_neg (by decide)]; exact hb1),
    ← Equiv.sum_comp (ValueIdx.contrEquiv1 dot_S10000x64_S64x64_S10000x64_1_0_0_1_n_n 64 rfl rfl).symm]
  refine congrArg (· + x2 b) (Finset.sum_congr rfl fun k _ => ?_)
  have hk := ValueIdx.contrEquiv1_symm_val dot_S10000x64_S64x64_S10000x64_1_0_0_1_n_n 64 rfl rfl k
  have el : dot_S10000x64_S64x64_S10000x64_1_0_0_1_n_n.lhsIdx j
      ((ValueIdx.contrEquiv1 dot_S10000x64_S64x64_S10000x64_1_0_0_1_n_n 64 rfl rfl).symm k) = blockRowAt j k :=
    funext fun a => Fin.ext (by
      match a with
      | ⟨0, _⟩ => exact prod_lhs_row _ _
      | ⟨1, _⟩ => exact (prod_lhs_k _ _).trans hk)
  have er : dot_S10000x64_S64x64_S10000x64_1_0_0_1_n_n.rhsIdx j
      ((ValueIdx.contrEquiv1 dot_S10000x64_S64x64_S10000x64_1_0_0_1_n_n 64 rfl rfl).symm k) = blockColAt j k :=
    funext fun a => Fin.ext (by
      match a with
      | ⟨0, _⟩ => exact (prod_rhs_k _ _).trans hk
      | ⟨1, _⟩ => exact prod_rhs_col _ _)
  rw [el, er]

/-- The four windows' block indices at point `t`, decided over the 10 points: block `t` of the node rows (input and
    result), block 0 of everything else. -/
theorem linear_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The node rows' block at point `t` is rows `10000 t …` of the array the region finds. -/
theorem nodes_block (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v12 : S100000x64.Idx → Elt Ideal .f32) i := by
  obtain ⟨e0, e1, -⟩ := linear_index t
  unfold iblk1
  rw [View.read_apply]
  show V c main_v12 _ = V c main_v12 _
  refine congrArg (V c main_v12) ?_
  funext a
  apply Fin.ext
  match a with
  | ⟨0, _⟩ => show win1_0.index t 0 * 10000 + 1 * (y 0).val = (i 0).val; rw [e0, h0]; omega
  | ⟨1, _⟩ => show win1_0.index t 1 * 64 + 1 * (y 1).val = (i 1).val; rw [e1, h1]; omega

/-- The weight matrix's block at every point is the whole matrix. -/
theorem weights_block (c : Dev nD) (t : Fin cfg1.N) (y : S64x64.Idx) (i : S64x64.Idx)
    (h0 : (i 0).val = (y 0).val) (h1 : (i 1).val = (y 1).val) :
    (iblk1 V c 1 t : Vec Ideal S64x64 .f32) y = (V c main_arg4 : S64x64.Idx → Elt Ideal .f32) i := by
  obtain ⟨-, -, e2, e3, -⟩ := linear_index t
  unfold iblk1
  rw [View.read_apply]
  show V c main_arg4 _ = V c main_arg4 _
  refine congrArg (V c main_arg4) ?_
  funext a
  apply Fin.ext
  match a with
  | ⟨0, _⟩ => show win1_1.index t 0 * 64 + 1 * (y 0).val = (i 0).val; rw [e2, h0]; omega
  | ⟨1, _⟩ => show win1_1.index t 1 * 64 + 1 * (y 1).val = (i 1).val; rw [e3, h1]; omega

/-- The bias row's block at every point is the whole row. -/
theorem bias_block (c : Dev nD) (t : Fin cfg1.N) (y : S1x64.Idx) (i : S1x64.Idx)
    (h0 : (i 0).val = (y 0).val) (h1 : (i 1).val = (y 1).val) :
    (iblk1 V c 2 t : Vec Ideal S1x64 .f32) y = (V c main_v1 : S1x64.Idx → Elt Ideal .f32) i := by
  obtain ⟨-, -, -, -, e4, e5, -⟩ := linear_index t
  unfold iblk1
  rw [View.read_apply]
  show V c main_v1 _ = V c main_v1 _
  refine congrArg (V c main_v1) ?_
  funext a
  apply Fin.ext
  match a with
  | ⟨0, _⟩ => show win1_2.index t 0 * 1 + 1 * (y 0).val = (i 0).val; rw [e4, h0]; omega
  | ⟨1, _⟩ => show win1_2.index t 1 * 64 + 1 * (y 1).val = (i 1).val; rw [e5, h1]; omega

/-- WHAT POINT `t` WRITES BACK is block `t` of the affine map of the three arrays the region finds. -/
theorem linear_flushed (c : Dev nD) (t : Fin cfg1.N) :
    (dat1 V c).flushed 3 t
      = ((cfg1.win 3).blk t).view.read (Elt Ideal) (affine (V c main_v12) (V c main_arg4) (V c main_v1)) := by
  show (cfg1.win 3).cut (grid1.coords t) ((dat1 V c).after 3 t) = _
  rw [after1_3]
  unfold out1_3
  rw [View.canon_unit_zero origin2']
  simp only [View.ld_unit_zero (S := S10000x64) origin2', View.ld_unit_zero (S := S64x64) origin2',
    View.ld_unit_zero (S := S1x64) origin2']
  obtain ⟨-, -, -, -, -, -, e6, e7⟩ := linear_index t
  funext j
  show k1_pay1 (iblk1 V c 0 t) (iblk1 V c 1 t) (iblk1 V c 2 t) j
    = affine (V c main_v12) (V c main_arg4) (V c main_v1) (((cfg1.win 3).blk t).view.emb j)
  have hj0 : ((((cfg1.win 3).blk t).view.emb j) 0).val = t.val * 10000 + (j 0).val := by
    show win1_3.index t 0 * 10000 + 1 * (j 0).val = _; rw [e6]; omega
  have hj1 : ((((cfg1.win 3).blk t).view.emb j) 1).val = (j 1).val := by
    show win1_3.index t 1 * 64 + 1 * (j 1).val = _; rw [e7]; omega
  refine (linear_payload (iblk1 V c 0 t) (iblk1 V c 1 t) (iblk1 V c 2 t) j
    (ix2 (⟨0, Nat.one_pos⟩ : Fin 1) (⟨(j 1).val, (j 1).isLt⟩ : Fin 64)) rfl rfl).trans ?_
  rw [affine_apply,
    bias_block V c t (ix2 (⟨0, Nat.one_pos⟩ : Fin 1) (⟨(j 1).val, (j 1).isLt⟩ : Fin 64))
      (biasAt (((cfg1.win 3).blk t).view.emb j)) rfl hj1]
  refine congrArg (· + (V c main_v1 : S1x64.Idx → Elt Ideal .f32) (biasAt (((cfg1.win 3).blk t).view.emb j)))
    (Finset.sum_congr rfl fun k _ => ?_)
  rw [nodes_block V c t (blockRowAt j k) (rowAt (((cfg1.win 3).blk t).view.emb j) k) hj0 rfl,
    weights_block V c t (blockColAt j k) (colAt (((cfg1.win 3).blk t).view.emb j) k) rfl hj1]

/-- An index of the result array is in point `t`'s block iff each coordinate is in the block's range on its axis. -/
theorem linear_mem_blk (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v13).slice (win1_3.rect t)).set ↔ _
  rw [View.set_slice_whole, Rect.mem_set_unit]
  exact Iff.rfl

/-- The ten blocks tile the result array: row `r` lies in block `r / 10000`. -/
theorem linear_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_3 _, ?_⟩
  rw [linear_mem_blk]
  obtain ⟨-, -, -, -, -, -, e6, e7⟩ := linear_index ⟨(i 0).val / 10000, by rw [hN]; omega⟩
  intro a
  match a with
  | ⟨0, _⟩ =>
    show win1_3.index _ 0 * 10000 ≤ (i 0).val ∧ (i 0).val < win1_3.index _ 0 * 10000 + 10000
    rw [e6]; show (i 0).val / 10000 * 10000 ≤ (i 0).val ∧ (i 0).val < (i 0).val / 10000 * 10000 + 10000; omega
  | ⟨1, _⟩ =>
    show win1_3.index _ 1 * 64 ≤ (i 1).val ∧ (i 1).val < win1_3.index _ 1 * 64 + 64
    rw [e7]; omega

/-- THE RESULT ARRAY after the region: the affine map of the node rows, the weight matrix and the bias row found. -/
theorem linear_final (c : Dev nD) :
    (dat1 V c).arrAt 3 cfg1.N = affine (V c main_v12) (V c main_arg4) (V c main_v1) :=
  (dat1 V c).arrAt_eq_of_cover 3 (affine (V c main_v12) (V c main_arg4) (V c main_v1))
    (fun t _ => linear_flushed V c t) linear_cover

end Cert.KernelIdeal.Whole

end
-- ==== Proof.HostStretches.lean ====
/-
  What the two regions find in their input buffers.

  Before the first region the host reshapes the edge weights to a column and the bias to a row, wraps negative source
  indices (an index below zero counts from the end: 100 000 is added), and gathers the source rows. Between the regions
  it scatter-adds the message rows into a zero node array at the destination indices. Each region's input buffer is
  therefore a fixed function of the launch memory and, for the scatter-add, of the message array the first region left;
  those functions are named here and never opened: the reference applies the same gather and the same scatter-add.
-/
import proofs.«119952_j48533130445595_2_alg».proof.Proof.Gen.KernelIdeal.Frame
import Idealize.ShloMosaic.Lib.StableHlo.Run
import Idealize.ShloMosaic.Lib.Pipeline.Value

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]

/-- The edge weights as a column. -/
def weightColumn (w : (⟨S1250000, .f32⟩ : BufTy).Contents (Elt F)) : (⟨S1250000x1, .f32⟩ : BufTy).Contents (Elt F) :=
  shapeCast S1250000x1 w shapeCasts_S1250000_S1250000x1

/-- The bias as a row. -/
def biasRow (b : (⟨S64, .f32⟩ : BufTy).Contents (Elt F)) : (⟨S1x64, .f32⟩ : BufTy).Contents (Elt F) :=
  shapeCast S1x64 b shapeCasts_S64_S1x64

/-- The source rows: row `e` is the node row at edge `e`'s source index, a negative index counting from the end. -/
def gatheredRows (X : (⟨S100000x64, .f32⟩ : BufTy).Contents (Elt F)) (src : (⟨S1250000, .i32⟩ : BufTy).Contents (Elt F)) :
    (⟨S1250000x64, .f32⟩ : BufTy).Contents (Elt F) :=
  Host.gather gather_S100000x64_S1250000x1_S1250000x64_1_0_n_n_0_1_164 X
    (broadcastInDim S1250000x1 ![0] bcast_S1250000_S1250000x1_0
      (select (cmpi .slt src (broadcastInDim S1250000 ![] bcast_S_S1250000 (constantI S_ 32 0#32)))
        (addi src (broadcastInDim S1250000 ![] bcast_S_S1250000 (constantI S_ 32 100000#32))) src))

/-- The message rows summed into their destination nodes' rows, from a zero array. -/
def summedRows (dst : (⟨S1250000, .i32⟩ : BufTy).Contents (Elt F)) (msgs : (⟨S1250000x64, .f32⟩ : BufTy).Contents (Elt F)) :
    (⟨S100000x64, .f32⟩ : BufTy).Contents (Elt F) :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 dst) msgs

/-- The weight column's entry `(e, 0)` is edge `e`'s weight: both arrays list the weights in the same order. -/
theorem weightColumn_apply (w : (⟨S1250000, .f32⟩ : BufTy).Contents (Elt F)) (j : S1250000x1.Idx) (k : S1250000.Idx)
    (hk : (k 0).val = (j 0).val) : weightColumn w j = w k := by
  unfold weightColumn
  refine shapeCast_apply w shapeCasts_S1250000_S1250000x1 j k ?_
  rw [Shape.rowMajor_val_one, Shape.rowMajor_val_two]
  show (k 0).val = (j 0).val * 1 + (j 1).val
  have h1 : (j 1).val < 1 := (j 1).isLt
  omega

/-- The bias row's entry `(0, o)` is channel `o`'s bias. -/
theorem biasRow_apply (b : (⟨S64, .f32⟩ : BufTy).Contents (Elt F)) (j : S1x64.Idx) (k : S64.Idx)
    (hk : (k 0).val = (j 1).val) : biasRow b j = b k := by
  unfold biasRow
  refine shapeCast_apply b shapeCasts_S64_S1x64 j k ?_
  rw [Shape.rowMajor_val_one, Shape.rowMajor_val_two]
  show (k 0).val = (j 0).val * 64 + (j 1).val
  have h0 : (j 0).val < 1 := (j 0).isLt
  omega

variable (m : (ℓ : Loc nD τ sig) → Buf (Elt F) ℓ) (ρ : Dev nD → PrngReg)

/-! ## The first region's inputs -/

/-- The first region finds the gathered source rows in its first input. -/
theorem entry_gathered (c : Dev nD) :
    V1 m ρ c main_v8 = gatheredRows (m ((c : Thread nD τ).loc main_arg0)) (m ((c : Thread nD τ).loc main_arg1)) := by
  unfold gatheredRows
  dsimp only [V1, W1, hostOps0]
  after_results <;> rfl

/-- The first region finds the weight column in its second input. -/
theorem entry_weightColumn (c : Dev nD) :
    V1 m ρ c main_v0 = weightColumn (m ((c : Thread nD τ).loc main_arg3)) := by
  unfold weightColumn
  dsimp only [V1, W1, hostOps0]
  after_results <;> rfl

/-! ## The second region's inputs -/

/-- The second region finds, in its first input, the scatter-add of what the first region left in the message array. -/
theorem entry_summed (c : Dev nD) :
    V3 m ρ c main_v12 = summedRows (m ((c : Thread nD τ).loc main_arg2)) ((dat0 (V1 m ρ) c).arrAt 2 cfg0.N) := by
  have hdst : W2 m ρ c (Proc.devRef .tc main_arg2) = m ((c : Thread nD τ).loc main_arg2) := by
    refine (W2_of_ne m ρ c main_arg2 (by decide)).trans ?_
    dsimp only [W1, hostOps0]
    after_results <;> rfl
  have hmsg : W2 m ρ c (Proc.devRef .tc main_v9) = (dat0 (V1 m ρ) c).arrAt 2 cfg0.N := W2_arr m ρ c 2
  rw [← hdst, ← hmsg]
  unfold summedRows
  dsimp only [V3, W3, hostOps1]
  after_results <;> rfl

/-- The second region finds the weight matrix as launched. -/
theorem entry_weights (c : Dev nD) : V3 m ρ c main_arg4 = m ((c : Thread nD τ).loc main_arg4) := by
  have h3 : W3 m ρ c (Proc.devRef .tc main_arg4) = W2 m ρ c (Proc.devRef .tc main_arg4) := by
    dsimp only [W3, hostOps1]
    after_results
  refine h3.trans ((W2_of_ne m ρ c main_arg4 (by decide)).trans ?_)
  dsimp only [W1, hostOps0]
  after_results <;> rfl

/-- The second region finds the bias row, which no later operation and no region touched. -/
theorem entry_biasRow (c : Dev nD) : V3 m ρ c main_v1 = biasRow (m ((c : Thread nD τ).loc main_arg5)) := by
  have h3 : W3 m ρ c (Proc.devRef .tc main_v1) = W2 m ρ c (Proc.devRef .tc main_v1) := by
    dsimp only [W3, hostOps1]
    after_results
  refine h3.trans ((W2_of_ne m ρ c main_v1 (by decide)).trans ?_)
  unfold biasRow
  dsimp only [W1, hostOps0]
  after_results <;> rfl

end Cert.KernelIdeal.Whole

end
-- ==== Proof.KernelValue.lean ====
/-
  The idealized kernel's result as one term of the launch memory.

  Reading the run backwards: the result buffer holds what the second region leaves in its output array, the affine map of
  what that region finds — the scatter-add of the first region's message array, the weight matrix as launched, the bias
  as a row —, and the first region's message array is every gathered source row scaled by its edge's weight.
-/
import proofs.«119952_j48533130445595_2_alg».proof.Proof.KernelRun
import proofs.«119952_j48533130445595_2_alg».proof.Proof.ScaleRegion
import proofs.«119952_j48533130445595_2_alg».proof.Proof.LinearRegion
import proofs.«119952_j48533130445595_2_alg».proof.Proof.HostStretches

noncomputable section

namespace Cert.KernelIdeal.Whole

open Cert.KernelIdeal Cert.KernelIdeal.Gen Cert.GraphConv
open Idealize.ShloMosaic Idealize.ShloMosaic.TcCoe Idealize.SL.Sem

variable (m : (ℓ : Loc nD τ sig) → Buf (Elt Ideal) ℓ) (ρ : Dev nD → PrngReg)

/-- The graph convolution of the launch memory's six arrays: gather, scale, scatter-add, affine map. -/
def result (c : Dev nD) : Buf (Elt Ideal) ((c.tc : Thread nD τ).loc main_v13) :=
  affine
    (summedRows (m ((c : Thread nD τ).loc main_arg2))
      (scaleRows (gatheredRows (m ((c : Thread nD τ).loc main_arg0)) (m ((c : Thread nD τ).loc main_arg1)))
        (weightColumn (m ((c : Thread nD τ).loc main_arg3)))))
    (m ((c : Thread nD τ).loc main_arg4))
    (biasRow (m ((c : Thread nD τ).loc main_arg5)))

/-- The last segment boundary's contents at the result array are the graph convolution of the launch memory. -/
theorem result_eq (c : Dev nD) : W4 m ρ c (Proc.devRef .tc main_v13) = result m c := by
  refine (W4_arr m ρ c 3).trans ((linear_final (V3 m ρ) c).trans ?_)
  rw [entry_summed m ρ c, scale_final (V1 m ρ) c, entry_gathered m ρ c, entry_weightColumn m ρ c,
    entry_weights m ρ c, entry_biasRow m ρ c]
  rfl

/-- Every weakly fair execution of the idealized kernel's @main terminates without a fault, with the result buffer at
    the graph convolution of the launch memory and the six argument arrays as launched. -/
theorem run : θ_run defs (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_result m ρ)

end Cert.KernelIdeal.Whole

end
-- ==== Proof.Reference.lean ====
/-
  The idealized reference computes the same graph convolution.

  Its @main gathers the source rows and scatter-adds the messages with the very operations the kernel's program applies
  on the host, so those two steps are one term on both sides and are never opened. What differs is spelling: the
  reference broadcasts the weights to a column and then along the channels and multiplies WEIGHT × ROW where the kernel
  multiplies ROW × WEIGHT (equal: multiplication of extended reals is commutative); and it contracts the whole node
  array with the weight matrix in one product and adds the bias broadcast to every row, which index by index is the
  affine map `∑ₖ f (v, k) · W (k, o) + b (o)` the kernel's blocks compute.
-/
import proofs.«119952_j48533130445595_2_alg».proof.Proof.Gen.ReferenceIdeal.Read
import proofs.«119952_j48533130445595_2_alg».proof.Proof.HostStretches
import proofs.«119952_j48533130445595_2_alg».proof.Proof.Spec

noncomputable section

namespace Cert.ReferenceIdeal.Whole

open Cert.ReferenceIdeal Cert.ReferenceIdeal.Read Cert.GraphConv
open Cert.KernelIdeal.Whole (gatheredRows summedRows weightColumn biasRow weightColumn_apply biasRow_apply)
open Idealize.ShloMosaic Idealize.ShloMosaic.ValueIdx

variable (x0 : (⟨S100000x64, .f32⟩ : BufTy).Contents (Elt Ideal)) (x1 x2 : (⟨S1250000, .i32⟩ : BufTy).Contents (Elt Ideal))
  (x3 : (⟨S1250000, .f32⟩ : BufTy).Contents (Elt Ideal)) (x4 : (⟨S64x64, .f32⟩ : BufTy).Contents (Elt Ideal))
  (x5 : (⟨S64, .f32⟩ : BufTy).Contents (Elt Ideal))

/-- The reference's gather is the kernel program's: the same operation on the same wrapped indices. -/
theorem gathered_eq : val_main_v7 (F := Ideal) x0 x1 = gatheredRows x0 x1 := rfl

/-- The reference's message array: every gathered row scaled by its edge's weight, the factors in the other order. -/
theorem messages_eq : val_main_v9 (F := Ideal) x0 x1 x3 = scaleRows (gatheredRows x0 x1) (weightColumn x3) := by
  funext i
  rw [val_main_v9_apply, val_main_v8_apply, val_main_v0_apply, scaleRows_apply,
    weightColumn_apply x3 (edgeOf i) (idx_main_v0 (idx_main_v8 i)) rfl, gathered_eq]
  exact mul_comm _ _

/-- The reference's node array: the same scatter-add of the same messages. -/
theorem summed_eq : val_main_v12 (F := Ideal) x0 x1 x2 x3
    = summedRows x2 (scaleRows (gatheredRows x0 x1) (weightColumn x3)) := by
  unfold val_main_v12
  rw [messages_eq]
  rfl

/-- THE REFERENCE'S RESULT is the graph convolution of its six arguments. -/
theorem result_eq : val_main_v16 (F := Ideal) x0 x1 x2 x3 x4 x5
    = affine (summedRows x2 (scaleRows (gatheredRows x0 x1) (weightColumn x3))) x4 (biasRow x5) := by
  funext i
  rw [val_main_v16_apply, val_main_v13_apply, val_main_v15_apply, val_main_v14_apply, affine_apply,
    biasRow_apply x5 (biasAt i) (idx_main_v14 (idx_main_v15 i)) rfl, summed_eq]
  have hl : ∀ k : Fin 64, lidx_main_v13 i k = rowAt i k := fun k => funext fun a => Fin.ext (by
    match a with
    | ⟨0, _⟩ => rfl
    | ⟨1, _⟩ => rfl)
  have hr : ∀ k : Fin 64, ridx_main_v13 i k = colAt i k := fun k => funext fun a => Fin.ext (by
    match a with
    | ⟨0, _⟩ => rfl
    | ⟨1, _⟩ => rfl)
  simp only [hl, hr]
  rfl

end Cert.ReferenceIdeal.Whole

end
-- ==== Proof.lean ====
/- A graph convolution, kernel against reference, on the extended reals.

   Both programs compute, for 100 000 nodes, 1 250 000 weighted edges and 64 channels,
       out (v, o) = ∑ₖ f (v, k) · W (k, o) + b (o),     f (v, ·) = ∑ over the edges e into v of w (e) · X (src e, ·).
   The kernel's program gathers the source rows and scatter-adds the messages with host operations and runs two
   pipelined regions: one scales each gathered row by its edge's weight, 5000 rows at a time; the other multiplies
   10 000 node rows at a time by the weight matrix (through bfloat16, which is no change on the extended reals) into a
   zero accumulator and adds the bias. The reference does the same with whole-array host operations.

   Proof/Spec.lean states the two steps as whole-array functions; Proof/ScaleRegion.lean and Proof/LinearRegion.lean show
   that each region's blocks are the blocks of its function and tile the array; Proof/HostStretches.lean reads what each
   region finds; Proof/KernelRun.lean and Proof/KernelValue.lean put the run together; Proof/Reference.lean reads the
   reference's run at an index. The two sides differ only in the order of the two factors of the scaling product, and
   the gather and the scatter-add are one term on both sides, so the equality needs no finiteness of the inputs.
   The three frames are the generated runs; the idealization rewrote no operation, so there is nothing to preserve. -/
import proofs.«119952_j48533130445595_2_alg».proof.Defs
import proofs.«119952_j48533130445595_2_alg».proof.Proof.Gen.Kernel
import proofs.«119952_j48533130445595_2_alg».proof.Proof.Gen.Kernel.Frame
import proofs.«119952_j48533130445595_2_alg».proof.Proof.Gen.KernelIdeal
import proofs.«119952_j48533130445595_2_alg».proof.Proof.Gen.KernelIdeal.Frame
import proofs.«119952_j48533130445595_2_alg».proof.Proof.Gen.ReferenceIdeal
import proofs.«119952_j48533130445595_2_alg».proof.Proof.Gen.ReferenceIdeal.Run
import proofs.«119952_j48533130445595_2_alg».proof.Proof.Gen.ReferenceIdeal.Read
import proofs.«119952_j48533130445595_2_alg».proof.Proof.Gen.Pre_finite_inputs
import proofs.«119952_j48533130445595_2_alg».proof.Proof.KernelValue
import proofs.«119952_j48533130445595_2_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the graph convolution of those arguments in
    their result buffers: the kernel's by its run read through its two regions, the reference's by its run read at an
    index. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Whole.result_eq,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
